-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignClip.lean ====
/-
  Scalar facts on the extended reals, for a weight that is clipped to [-1, 1] and then binarized by its sign.
  The clipped weight lies between -1 and 1, so it is a real number; for a real number c and a real number s,
  c + (s - c) = s; hence the clipped weight plus the difference between its sign and itself is its sign.
-/
import Idealize.ShloMosaic.PureOps.Ideal.Laws
import Idealize.ShloMosaic.PureOps.IdealRules

noncomputable section

namespace Cert.DenseSign

open Idealize.ShloMosaic

/-- The f32 word of 1.0 denotes the number 1. -/
theorem one_f32 : Ideal.ofBits .f32 0x3F800000#32 = 1 := IdealRules.sign_bit.ideal_onePat .f32

/-- The f32 word of -1.0 denotes the number -1. -/
theorem neg_one_f32 : Ideal.ofBits .f32 0xBF800000#32 = -1 := IdealRules.sign_bit.ideal_negOnePat .f32

/-- A weight clipped to [-1, 1]: first raised to at least -1, then lowered to at most 1. -/
def clip (w : EReal) : EReal :=
  min (Ideal.ofBits .f32 0x3F800000#32) (max (Ideal.ofBits .f32 0xBF800000#32) w)

/-- The binarized weight: the sign (-1, 0 or 1) of the clipped weight. -/
def bin (w : EReal) : EReal := Ideal.sign (clip w)

/-- A clipped weight is a real number, whatever the weight (an infinite weight is clipped to 1 or -1). -/
theorem clip_real (w : EReal) : ∃ r : ℝ, clip w = (r : EReal) := by
  unfold clip
  rw [one_f32, neg_one_f32]
  have h1 : min (1 : EReal) (max (-1) w) ≤ 1 := min_le_left _ _
  have h2 : (-1 : EReal) ≤ min 1 (max (-1) w) :=
    le_min (by rw [← EReal.coe_one, ← EReal.coe_neg, EReal.coe_le_coe_iff]; norm_num) (le_max_left _ _)
  have hnt : min (1 : EReal) (max (-1) w) ≠ ⊤ := fun h => by
    rw [h] at h1; exact absurd h1 (by rw [← EReal.coe_one]; exact not_le.mpr (EReal.coe_lt_top 1))
  have hnb : min (1 : EReal) (max (-1) w) ≠ ⊥ := fun h => by
    rw [h] at h2
    exact absurd h2 (by rw [← EReal.coe_one, ← EReal.coe_neg]; exact not_le.mpr (EReal.bot_lt_coe _))
  exact ⟨(min (1 : EReal) (max (-1) w)).toReal, (EReal.coe_toReal hnt hnb).symm⟩

/-- The straight-through form of the binarized weight: the clipped weight plus (its sign minus itself) is its
    sign, because the clipped weight is real and so cancels. -/
theorem clip_add_sign_sub (w : EReal) : clip w + (Ideal.sign (clip w) - clip w) = bin w := by
  obtain ⟨r, hr⟩ := clip_real w
  unfold bin
  rw [hr, Ideal.sign_coe, ← EReal.coe_sub, ← EReal.coe_add]
  congr 1
  ring

end Cert.DenseSign

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.Payload.lean ====
/-
  The three values the kernel body stores into its output block, read at one position (r, c) of the block, on the
  extended reals.

  * The first store, at the first step of the contraction axis, writes zero everywhere.
  * The accumulating store writes the block's previous contents plus the product of the x block (2048 x 512) with
    the binarized w block (512 x 1024): at (r, c) the previous entry plus the sum over the block's 512 contraction
    positions of x(r, k) times the sign of the clipped w(k, c). The sign is computed as "if |v| > 0 then (-1 if
    v < 0 else 1) else v", which is the sign function at every extended real; the narrowing of both operands to
    16 bits is the identity on the extended reals.
  * The last store, at the last step, adds the bias row to every row: at (r, c) the entry plus bias(0, c).
-/
import proofs.«142727_j16415365005593_2_alg».proof.Proof.Gen.KernelIdeal.Skeleton
import proofs.«142727_j16415365005593_2_alg».proof.Proof.SignClip
import proofs.«142727_j16415365005593_2_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.DenseSign

/-- The block product's dimension numbers: x's second axis against w's first. -/
abbrev blockDot : DotDims S2048x512 S512x1024 S2048x1024 := dot_S2048x512_S512x1024_S2048x1024_1_0_0_1_n_n

/-- At output position (r, c) and contraction position k, the product reads the x block at (r, k). -/
theorem blockDot_lhs (r : Fin 2048) (c : Fin 1024) (k : Fin 512) :
    blockDot.lhsIdx (ix2 r c) ((contrEquiv1 blockDot 512 rfl rfl).symm k) = ix2 r k := by
  have hk := contrEquiv1_symm_val blockDot 512 rfl rfl k
  funext a
  apply Fin.ext
  match a with
  | ⟨0, _⟩ =>
    show (blockDot.lhsIdx (ix2 r c) _ 0).val = r.val
    unfold DotDims.lhsIdx
    rw [dif_neg (show ¬(0 : Fin S2048x512.rank) ∈ blockDot.lhsBatch by decide),
      dif_pos (show (0 : Fin S2048x512.rank) ∈ blockDot.lhsNonContracting by decide)]
    rfl
  | ⟨1, _⟩ => exact (blockDot.lhsIdx_val_of_single rfl (ix2 r c) _).trans hk

/-- … and the w block at (k, c). -/
theorem blockDot_rhs (r : Fin 2048) (c : Fin 1024) (k : Fin 512) :
    blockDot.rhsIdx (ix2 r c) ((contrEquiv1 blockDot 512 rfl rfl).symm k) = ix2 k c := by
  have hk := contrEquiv1_symm_val blockDot 512 rfl rfl k
  funext a
  apply Fin.ext
  match a with
  | ⟨0, _⟩ => exact (blockDot.rhsIdx_val_of_single rfl (ix2 r c) _).trans hk
  | ⟨1, _⟩ =>
    show (blockDot.rhsIdx (ix2 r c) _ 1).val = c.val
    unfold DotDims.rhsIdx
    rw [dif_neg (show ¬(1 : Fin S512x1024.rank) ∈ blockDot.rhsBatch by decide),
      dif_pos (show (1 : Fin S512x1024.rank) ∈ blockDot.rhsNonContracting by decide)]
    rfl

/-- The first store writes zero. -/
theorem pay1_apply (y : S2048x1024.Idx) : k0_pay1 (F := Ideal) y = 0 :=
  Ideal.ofBits_zero_f32

/-- The accumulating store at (r, c): the previous entry plus the block's share of the contraction sum. -/
theorem pay2_apply (x1 : Vec Ideal S512x1024 .f32) (x0 : Vec Ideal S2048x512 .f32) (acc : Vec Ideal S2048x1024 .f32)
    (r : Fin 2048) (c : Fin 1024) :
    k0_pay2 (F := Ideal) x1 x0 acc (ix2 r c)
      = acc (ix2 r c) + ∑ k : Fin 512, x0 (ix2 r k) * bin (x1 (ix2 k c)) := by
  unfold k0_pay2
  refine congrArg₂ (fun a b : EReal => a + b) (congrFun (shapeCast_self acc _) _) ?_
  refine (DotSum.matmul_zero_eq_sum blockDot 512 rfl rfl _ _ (ix2 r c) (fun k => ix2 r k) (fun k => ix2 k c)
    (blockDot_lhs r c) (blockDot_rhs r c)).trans ?_
  refine Finset.sum_congr rfl fun k _ => congrArg (fun b : EReal => x0 (ix2 r k) * b) ?_
  exact Ideal.jnp_sign_eq_sign_f32 (clip (x1 (ix2 k c)))

/-- The last store at (r, c): the entry plus the bias row's entry at c. -/
theorem pay3_apply (a : Vec Ideal S2048x1024 .f32) (x2 : Vec Ideal S1x1024 .f32) (r : Fin 2048) (c : Fin 1024) :
    k0_pay3 (F := Ideal) a x2 (ix2 r c) = a (ix2 r c) + x2 (ix2 (0 : Fin 1) c) := by
  unfold k0_pay3
  refine congrArg₂ (fun a b : EReal => a + b) (congrFun (shapeCast_self a _) _) ?_
  refine (broadcastTo_1b_ab_apply _ _ r c).trans ?_
  exact congrFun (shapeCast_self x2 _) _

end Cert.KernelIdeal.Payload

end
-- ==== Proof.BlockSum.lean ====
/-
  A sum over m * n consecutive positions is the sum, over m blocks, of each block's n positions. Only
  commutativity and associativity of addition are used, so it holds in the extended reals with no
  finiteness condition.
-/
import Mathlib.Algebra.BigOperators.Fin
import Mathlib.Logic.Equiv.Fin.Basic

namespace Cert.DenseSign

/-- Position n * s + j of a row of m * n entries is entry j of block s. -/
theorem sum_fin_mul {β : Type*} [AddCommMonoid β] (m n : ℕ) (f : ℕ → β) :
    ∑ k : Fin (m * n), f k.val = ∑ s ∈ Finset.range m, ∑ j : Fin n, f (n * s + j.val) := by
  rw [Finset.sum_range, ← Equiv.sum_comp finProdFinEquiv, Fintype.sum_prod_type]
  refine Finset.sum_congr rfl fun a _ => Finset.sum_congr rfl fun b _ => ?_
  rw [finProdFinEquiv_apply_val, add_comm]

/-- The contraction axis of 4096 entries as 8 blocks of 512. -/
theorem sum_4096_blocks {β : Type*} [AddCommMonoid β] (f : ℕ → β) :
    ∑ k : Fin 4096, f k.val = ∑ s ∈ Finset.range 8, ∑ j : Fin 512, f (512 * s + j.val) :=
  sum_fin_mul 8 512 f

end Cert.DenseSign
-- ==== Proof.Spec.lean ====
/-
  The dense layer as one function of its three arrays, on the extended reals:

      out(i, j) = ( sum over k < 4096 of x(i, k) * bin(w(k, j)) ) + b(j),

  where bin(v) is the sign of v clipped to [-1, 1]. Entries are addressed by natural-number coordinates (an entry
  outside the array reads as zero and is never used), so that the arithmetic on block offsets is arithmetic on
  naturals. Also: the share of this sum that one grid point contributes to one position of its output block, and
  the fact that the eight shares of a run of grid points add up to the whole sum.
-/
import Idealize.ShloMosaic.Lib.ValueIdx
import proofs.«142727_j16415365005593_2_alg».proof.Proof.SignClip
import proofs.«142727_j16415365005593_2_alg».proof.Proof.BlockSum

noncomputable section

namespace Cert.DenseSign

open Idealize.ShloMosaic Idealize.ShloMosaic.ValueIdx

/-- Entry (a, b) of a matrix, by natural-number coordinates. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

/-- Entry a of a vector, by its natural-number coordinate. -/
def at1 {n : ℕ} (B : (⟨1, ![n]⟩ : Shape).Idx → EReal) (a : ℕ) : EReal :=
  if h : a < n then B (ix1 ⟨a, h⟩) else 0

/-- A matrix read at an index is the entry at the index's coordinates. -/
theorem eq_at2 {n0 n1 : ℕ} (A : (⟨2, ![n0, n1]⟩ : Shape).Idx → EReal) (j : (⟨2, ![n0, n1]⟩ : Shape).Idx) (a b : ℕ)
    (ha : (j 0).val = a) (hb : (j 1).val = b) : A j = at2 A a b := by
  subst ha hb
  unfold at2
  rw [dif_pos ⟨idx2_lt0 j, idx2_lt1 j⟩]
  exact congrArg A (eq_ix2 j)

/-- A vector read at an index is the entry at the index's coordinate. -/
theorem eq_at1 {n : ℕ} (B : (⟨1, ![n]⟩ : Shape).Idx → EReal) (j : (⟨1, ![n]⟩ : Shape).Idx) (a : ℕ)
    (ha : (j 0).val = a) : B j = at1 B a := by
  subst ha
  unfold at1
  rw [dif_pos (show (j 0).val < n from (j 0).isLt)]
  exact congrArg B (eq_ix1 j)

/-- The dense layer with binarized weights: out(i, j) = Σ_k x(i, k) · bin(w(k, j)) + b(j). -/
def dense (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, at2 x (i 0).val k.val * bin (at2 w k.val (i 1).val)) + at1 b (i 1).val

/-- Grid point n (of the 4 x 4 x 8 grid in row-major order) works on rows 2048·(n / 32) …, columns
    1024·(n / 8 % 4) … and contraction positions 512·(n % 8) …; at position y of its 2048 x 1024 output block it
    contributes the sum over its 512 contraction positions. -/
def addend (x : (⟨2, ![8192, 4096]⟩ : Shape).Idx → EReal) (w : (⟨2, ![4096, 4096]⟩ : Shape).Idx → EReal)
    (n : ℕ) (y : (⟨2, ![2048, 1024]⟩ : Shape).Idx) : EReal :=
  ∑ k : Fin 512, at2 x (2048 * (n / 32) + (y 0).val) (512 * (n % 8) + k.val)
    * bin (at2 w (512 * (n % 8) + k.val) (1024 * (n / 8 % 4) + (y 1).val))

/-- The eight grid points 8q … 8q + 7 of one run share the output block (q / 4, q % 4) and walk the contraction
    axis block by block, so at the block position of (i, j) their contributions add up to the whole sum over k. -/
theorem sum_addend (x : (⟨2, ![8192, 4096]⟩ : Shape).Idx → EReal) (w : (⟨2, ![4096, 4096]⟩ : Shape).Idx → EReal)
    (i j q : ℕ) (y : (⟨2, ![2048, 1024]⟩ : Shape).Idx) (hi : i < 8192) (hj : j < 4096)
    (hq : q = 4 * (i / 2048) + j / 1024) (hy0 : (y 0).val = i % 2048) (hy1 : (y 1).val = j % 1024) :
    ∑ s ∈ Finset.range 8, addend x w (8 * q + s) y = ∑ k : Fin 4096, at2 x i k.val * bin (at2 w k.val j) := by
  rw [sum_4096_blocks (fun k => at2 x i k * bin (at2 w k j))]
  refine Finset.sum_congr rfl fun s hs => ?_
  have hs8 : s < 8 := Finset.mem_range.mp hs
  unfold addend
  refine Finset.sum_congr rfl fun k _ => ?_
  rw [hy0, hy1, hq]
  rw [show 2048 * ((8 * (4 * (i / 2048) + j / 1024) + s) / 32) + i % 2048 = i from by omega,
    show (8 * (4 * (i / 2048) + j / 1024) + s) % 8 = s from by omega,
    show 1024 * ((8 * (4 * (i / 2048) + j / 1024) + s) / 8 % 4) + j % 1024 = j from by omega]

end Cert.DenseSign

end
-- ==== Proof.Blocks.lean ====
/-
  What the kernel's three input blocks hold at grid point t, in terms of the argument arrays as launched.
  The grid is 4 x 4 x 8 in row-major order, so point t has row-block t / 32, column-block t / 8 % 4 and
  contraction-block t % 8. The x block is rows 2048·(t / 32) … and columns 512·(t % 8) … of x; the w block is rows
  512·(t % 8) … and columns 1024·(t / 8 % 4) … of w; the bias block is columns 1024·(t / 8 % 4) … of the bias
  reshaped to one row (the reshape keeps the entries in order, so row 0, column j of it is bias entry j).
-/
import proofs.«142727_j16415365005593_2_alg».proof.Proof.Gen.KernelIdeal.Frame
import proofs.«142727_j16415365005593_2_alg».proof.Proof.Spec
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.DenseSign

variable (m : (ℓ : Loc nD τ sig) → Buf (Elt Ideal) ℓ)

/-- The argument arrays as launched: x, w and the bias. -/
abbrev argX (c : Dev nD) : S8192x4096.Idx → EReal := m ((c : Thread nD τ).loc main_arg0)
abbrev argW (c : Dev nD) : S4096x4096.Idx → EReal := m ((c : Thread nD τ).loc main_arg1)
abbrev argB (c : Dev nD) : S4096.Idx → EReal := m ((c : Thread nD τ).loc main_arg2)

/-- The three input windows' block indices at point t, decided over the grid's 128 points. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4 :=
  (by decide +kernel : ∀ t : Fin grid0.N, _)

/-- Entry (r, k) of the x block at point t. -/
theorem xblk_apply (c : Dev nD) (t : Fin cfg0.N) (r : Fin 2048) (k : Fin 512) :
    iblk m c 0 t (ix2 r k) = at2 (argX m c) (2048 * (t.val / 32) + r.val) (512 * (t.val % 8) + k.val) := by
  obtain ⟨e0, e1, -⟩ := idx_facts t
  have h : iblk m c 0 t (ix2 r k) = V m c main_arg0 (((cfg0.win 0).blk t).view.emb (ix2 r k)) := rfl
  have hb0 : ((((cfg0.win 0).blk t).view.emb (ix2 r k)) 0).val = win0_0.index t (0 : Fin 2) * 2048 + 1 * r.val := rfl
  have hb1 : ((((cfg0.win 0).blk t).view.emb (ix2 r k)) 1).val = win0_0.index t (1 : Fin 2) * 512 + 1 * k.val := rfl
  rw [h, V_main_arg0]
  exact eq_at2 (argX m c) _ _ _ (hb0.trans (by rw [e0]; omega)) (hb1.trans (by rw [e1]; omega))

/-- Entry (k, j) of the w block at point t. -/
theorem wblk_apply (c : Dev nD) (t : Fin cfg0.N) (k : Fin 512) (j : Fin 1024) :
    iblk m c 1 t (ix2 k j) = at2 (argW m c) (512 * (t.val % 8) + k.val) (1024 * (t.val / 8 % 4) + j.val) := by
  obtain ⟨-, -, e0, e1, -⟩ := idx_facts t
  have h : iblk m c 1 t (ix2 k j) = V m c main_arg1 (((cfg0.win 1).blk t).view.emb (ix2 k j)) := rfl
  have hb0 : ((((cfg0.win 1).blk t).view.emb (ix2 k j)) 0).val = win0_1.index t (0 : Fin 2) * 512 + 1 * k.val := rfl
  have hb1 : ((((cfg0.win 1).blk t).view.emb (ix2 k j)) 1).val = win0_1.index t (1 : Fin 2) * 1024 + 1 * j.val := rfl
  rw [h, V_main_arg1]
  exact eq_at2 (argW m c) _ _ _ (hb0.trans (by rw [e0]; omega)) (hb1.trans (by rw [e1]; omega))

/-- The bias as the kernel's region finds it: the launched vector reshaped to one row. -/
theorem bias_row (c : Dev nD) :
    (V m c main_v0 : S1x4096.Idx → EReal) = shapeCast S1x4096 (argB m c) shapeCasts_S4096_S1x4096 := by
  dsimp only [V, hostOps0]
  after_results
  rfl

/-- Entry (0, j) of the bias block at point t. -/
theorem bblk_apply (c : Dev nD) (t : Fin cfg0.N) (j : Fin 1024) :
    iblk m c 2 t (ix2 (0 : Fin 1) j) = at1 (argB m c) (1024 * (t.val / 8 % 4) + j.val) := by
  obtain ⟨-, -, -, -, -, e1⟩ := idx_facts t
  have h : iblk m c 2 t (ix2 (0 : Fin 1) j)
      = (V m c main_v0 : S1x4096.Idx → EReal) (((cfg0.win 2).blk t).view.emb (ix2 (0 : Fin 1) j)) := rfl
  have hb1 : ((((cfg0.win 2).blk t).view.emb (ix2 (0 : Fin 1) j)) 1).val
      = win0_2.index t (1 : Fin 2) * 1024 + 1 * j.val := rfl
  rw [h, bias_row]
  refine (congrArg (shapeCast S1x4096 (argB m c) shapeCasts_S4096_S1x4096) (eq_ix2 _)).trans ?_
  refine (shapeCast_a_1a_apply (argB m c) shapeCasts_S4096_S1x4096 _ _).trans ?_
  exact eq_at1 (argB m c) _ _ (hb1.trans (by rw [e1]; omega))

end Cert.KernelIdeal.Blocks

end
-- ==== Proof.Fold.lean ====
/-
  The kernel's output array after the run is the dense layer of the launched arrays.

  An output block (2048 x 1024) stays in place for a run of eight consecutive grid points 8q … 8q + 7, one per
  block of the contraction axis. The first point of the run overwrites the block with zero and adds its share
  of the contraction sum; each of the next six adds its share to what the point before left; the last adds its
  share and then the bias row, and the block is written back. So the block ends holding, at each position,
  0 + (the eight shares) + bias, and the eight shares are the whole sum over the contraction axis. Only
  associativity and commutativity of addition on the extended reals are used: no entry needs to be finite.
-/
import proofs.«142727_j16415365005593_2_alg».proof.Proof.Gen.KernelIdeal.Value
import proofs.«142727_j16415365005593_2_alg».proof.Proof.Payload
import proofs.«142727_j16415365005593_2_alg».proof.Proof.Blocks
import proofs.«142727_j16415365005593_2_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx Cert.DenseSign
open Cert.KernelIdeal.Value Cert.KernelIdeal.Payload Cert.KernelIdeal.Blocks

variable (m : (ℓ : Loc nD τ sig) → Buf (Elt Ideal) ℓ)

/-- The accumulating store at grid point n, at a position of the output block: the previous entry plus the
    point's share of the contraction sum, read off the launched x and w. -/
theorem acc_step (c : Dev nD) (n : ℕ) (h : n < cfg0.N) (acc : Vec Ideal S2048x1024 .f32) (y : S2048x1024.Idx) :
    k0_pay2 (F := Ideal) (iblk m c 1 ⟨n, h⟩) (iblk m c 0 ⟨n, h⟩) acc y
      = acc y + addend (argX m c) (argW m c) n y := by
  obtain ⟨r, j, rfl⟩ : ∃ (r : Fin 2048) (j : Fin 1024), y = ix2 r j := ⟨y 0, y 1, eq_ix2 y⟩
  refine (pay2_apply (iblk m c 1 ⟨n, h⟩) (iblk m c 0 ⟨n, h⟩) acc r j).trans ?_
  refine congrArg (fun b : EReal => acc (ix2 r j) + b) ?_
  unfold addend
  refine Finset.sum_congr rfl fun k _ => ?_
  exact congrArg₂ (fun a b : EReal => a * bin b) (xblk_apply m c ⟨n, h⟩ r k) (wblk_apply m c ⟨n, h⟩ k j)

/-- The first point of a run: zero plus its share. -/
theorem reset_apply (c : Dev nD) (n : ℕ) (h : n < cfg0.N) (y : S2048x1024.Idx) :
    reset3 m c n h y = 0 + addend (argX m c) (argW m c) n y := by
  unfold reset3
  refine (acc_step m c n h (k0_pay1 (F := Ideal)) y).trans ?_
  rw [pay1_apply]

/-- A middle point of a run: what the point before left plus its share. -/
theorem step_mid (c : Dev nD) (n : ℕ) (h : n < cfg0.N) (acc : Vec Ideal S2048x1024 .f32) (y : S2048x1024.Idx)
    (h0 : ¬n % 8 = 0) (h7 : ¬n % 8 = 7) :
    step3 m c n h acc y = acc y + addend (argX m c) (argW m c) n y := by
  unfold step3
  rw [if_pos ⟨h0, h7⟩]
  exact acc_step m c n h acc y

/-- The last point of a run: its share, then the bias entry of the position's column. -/
theorem step_last (c : Dev nD) (n : ℕ) (h : n < cfg0.N) (acc : Vec Ideal S2048x1024 .f32) (y : S2048x1024.Idx)
    (h7 : n % 8 = 7) :
    step3 m c n h acc y
      = acc y + addend (argX m c) (argW m c) n y + at1 (argB m c) (1024 * (n / 8 % 4) + (y 1).val) := by
  unfold step3
  rw [if_neg (by omega), if_pos ⟨by omega, h7⟩]
  obtain ⟨r, j, rfl⟩ : ∃ (r : Fin 2048) (j : Fin 1024), y = ix2 r j := ⟨y 0, y 1, eq_ix2 y⟩
  refine (pay3_apply _ (iblk m c 2 ⟨n, h⟩) r j).trans ?_
  exact congrArg₂ (fun a b : EReal => a + b) (acc_step m c n h acc (ix2 r j)) (bblk_apply m c ⟨n, h⟩ j)

/-- What run q leaves in its output block: the eight points' shares, then the bias. -/
theorem fold_eq (c : Dev nD) (q : ℕ) (hq : 8 * q + 7 < cfg0.N) (y : S2048x1024.Idx) :
    Pipeline.accAt (reset3 m c) (step3 m c) (8 * q) 7 hq y
      = (∑ s ∈ Finset.range 8, addend (argX m c) (argW m c) (8 * q + s) y)
        + at1 (argB m c) (1024 * (q % 4) + (y 1).val) := by
  have e1 : Pipeline.accAt (reset3 m c) (step3 m c) (8 * q) 7 hq y
      = step3 m c (8 * q + 7) hq
          (Pipeline.accAt (reset3 m c) (step3 m c) (8 * q) 6 (Nat.lt_of_succ_lt hq)) y := rfl
  rw [e1, step_last m c (8 * q + 7) hq _ y (by omega)]
  rw [Pipeline.accAt_add_apply (ι := S2048x1024.Idx) (β := EReal) (reset3 m c) (step3 m c) (fun _ => 0)
      (addend (argX m c) (argW m c)) (8 * q) 6
      (fun h y => reset_apply m c (8 * q) h y)
      (fun n h acc y hlo hhi => step_mid m c n h acc y (by omega) (by omega)) 6 le_rfl (Nat.lt_of_succ_lt hq) y]
  rw [Finset.sum_range_succ (fun s => addend (argX m c) (argW m c) (8 * q + s) y) 7,
    show (8 * q + 7) / 8 % 4 = q % 4 from by omega]
  exact congrArg (fun a : EReal => a + addend (argX m c) (argW m c) (8 * q + 7) y
    + at1 (argB m c) (1024 * (q % 4) + (y 1).val)) (zero_add _)

/-- THE KERNEL'S RESULT: the output array after the run is the dense layer of x, w and the bias as launched. -/
theorem G3_eq_dense (c : Dev nD) :
    (G3 m c : S8192x4096.Idx → EReal) = dense (argX m c) (argW m c) (argB m c) := by
  funext i
  have hN : cfg0.N = 128 := N_0
  have hi0 : (i 0).val < 8192 := idx2_lt0 i
  have hi1 : (i 1).val < 4096 := idx2_lt1 i
  have hr : run3Of i = 4 * ((i 0).val / 2048) + (i 1).val / 1024 := by
    show 4 * ((i 0).val / 2048 - 0) + 1 * ((i 1).val / 1024 - 0) = _
    omega
  have hq : 8 * run3Of i + 7 < cfg0.N := by rw [hN, hr]; omega
  unfold G3
  rw [dif_pos hq, fold_eq m c (run3Of i) hq (loc3Of i),
    sum_addend (argX m c) (argW m c) (i 0).val (i 1).val (run3Of i) (loc3Of i) hi0 hi1 hr rfl rfl]
  unfold dense
  refine congrArg (fun b : EReal => (∑ k : Fin 4096, at2 (argX m c) (i 0).val k.val
    * bin (at2 (argW m c) k.val (i 1).val)) + b) ?_
  show at1 (argB m c) (1024 * (run3Of i % 4) + (i 1).val % 1024) = at1 (argB m c) (i 1).val
  rw [hr]
  exact congrArg (at1 (argB m c)) (by omega)

end Cert.KernelIdeal.Fold

end
-- ==== Proof.RefValue.lean ====
/-
  The reference's result, read one operation at a time, is the dense layer of its arguments.

  The reference clips w to [-1, 1] (a maximum with -1, then a minimum with 1), takes the sign, and forms
  clipped + (sign - clipped): the straight-through estimator's forward value. The clipped weight is a real
  number, so this is the sign itself. The product with x is the sum over the contraction axis, and the bias,
  broadcast over the rows, is added at each column.
-/
import proofs.«142727_j16415365005593_2_alg».proof.Proof.Gen.ReferenceIdeal.Read
import proofs.«142727_j16415365005593_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.DenseSign

/-- The weight the reference multiplies by, at an index: the binarized weight. -/
theorem weight_apply (x1 : S4096x4096.Idx → EReal) (j : S4096x4096.Idx) :
    val_main_v3 (F := Ideal) x1 j = bin (x1 j) := by
  rw [val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply]
  exact clip_add_sign_sub (x1 j)

/-- THE REFERENCE'S RESULT is the dense layer of its three arguments. -/
theorem ref_eq_dense (x0 : S8192x4096.Idx → EReal) (x1 : S4096x4096.Idx → EReal) (x2 : S4096.Idx → EReal) :
    val_main_v7 (F := Ideal) x0 x1 x2 = dense x0 x1 x2 := by
  funext i
  rw [val_main_v7_apply, val_main_v4_apply, val_main_v6_apply, val_main_v5_apply, Ideal.addf_def]
  unfold dense
  refine congrArg₂ (fun a b : EReal => a + b) (Finset.sum_congr rfl fun k _ => ?_) ?_
  · rw [weight_apply]
    exact congrArg₂ (fun a b : EReal => a * bin b) (eq_at2 x0 _ _ _ rfl rfl) (eq_at2 x1 _ _ _ rfl rfl)
  · exact eq_at1 x2 _ _ rfl

end Cert.ReferenceIdeal.RefValue

end
-- ==== Proof.lean ====
/-
  The certificate of a dense layer with sign-binarized weights: out = x · bin(w) + b, where bin(v) is the sign of
  v clipped to [-1, 1], over x : [8192, 4096], w : [4096, 4096], b : [4096].

  The kernel tiles the output into 2048 x 1024 blocks and walks the contraction axis in eight blocks of 512,
  accumulating each block's partial product into the output block (zeroed at the first step) and adding the bias
  once at the last step. The reference forms clipped + (sign(clipped) - clipped), multiplies once and adds the
  bias. On the extended reals the two agree at every index: the clipped weight is real, so the reference's
  weight is the sign itself; and the eight partial sums are the whole sum regrouped, which needs only
  associativity and commutativity of addition. No input needs to be finite for this, so the precondition is
  never opened.

  The frames of the two kernels are the generated ones; the reference's frame is its generated run with the
  result dropped. The kernel's sign is computed from the sign bit of the clipped weight; the idealized kernel
  reads it as a comparison with zero, which is the one recorded rewrite.
-/
import proofs.«142727_j16415365005593_2_alg».proof.Defs
import proofs.«142727_j16415365005593_2_alg».proof.Proof.Gen.Kernel
import proofs.«142727_j16415365005593_2_alg».proof.Proof.Gen.Kernel.Frame
import proofs.«142727_j16415365005593_2_alg».proof.Proof.Gen.KernelIdeal
import proofs.«142727_j16415365005593_2_alg».proof.Proof.Gen.KernelIdeal.Frame
import proofs.«142727_j16415365005593_2_alg».proof.Proof.Gen.KernelIdeal.Value
import proofs.«142727_j16415365005593_2_alg».proof.Proof.Gen.ReferenceIdeal
import proofs.«142727_j16415365005593_2_alg».proof.Proof.Gen.ReferenceIdeal.Run
import proofs.«142727_j16415365005593_2_alg».proof.Proof.Gen.ReferenceIdeal.Read
import proofs.«142727_j16415365005593_2_alg».proof.Proof.Gen.Pre_finite_inputs
import proofs.«142727_j16415365005593_2_alg».proof.Proof.Fold
import proofs.«142727_j16415365005593_2_alg».proof.Proof.RefValue
import Idealize.ShloMosaic.Adequacy
import Idealize.ShloMosaic.Init

noncomputable section

namespace Cert.Proof

open Idealize.ShloMosaic Idealize.ShloMosaic.TcCoe Idealize.SL.Sem Cert.DenseSign

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying the clipped weight's sign bit is -1 where the weight is
    below zero and 1 elsewhere. -/
theorem preserves : Cert.preserves_Kernel_KernelIdeal :=
  IdealRules.sign_bit.statement Cert.KernelIdeal.S512x1024 .f32

/-- On the extended reals both programs end with the dense layer of the (agreeing) arguments in their result. -/
theorem algebraic : Cert.algebraic_KernelIdeal_ReferenceIdeal := by
  intro m ρ m' ρ' _ hagree
  refine ⟨fun c => dense (Cert.KernelIdeal.Blocks.argX m c) (Cert.KernelIdeal.Blocks.argW m c)
    (Cert.KernelIdeal.Blocks.argB m c), ?_, ?_⟩
  · exact (θ_run Cert.KernelIdeal.defs _ _).mono
      (fun r h c => ⟨(h c).1.trans (Cert.KernelIdeal.Fold.G3_eq_dense m c), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_eq_dense,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
